-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x32 .f32) (main_arg6 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 88
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S100000x64, .f32⟩
  | .hbm, ⟨70, _⟩ => ⟨S100000x32, .f32⟩
  | .hbm, ⟨71, _⟩ => ⟨S1700000x1, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x32, .f32⟩
  | .hbm, ⟨81, _⟩ => ⟨S1700000x32, .f32⟩
  | .hbm, ⟨82, _⟩ => ⟨S1700000x32, .f32⟩
  | .hbm, ⟨83, _⟩ => ⟨S_, .f32⟩
  | .hbm, ⟨84, _⟩ => ⟨S100000x32, .f32⟩
  | .hbm, ⟨85, _⟩ => ⟨S1700000x1, .i32⟩
  | .hbm, ⟨86, _⟩ => ⟨S100000x32, .f32⟩
  | .hbm, ⟨87, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S32, .f32⟩
  | .local _ .vmem, ⟨18, _⟩ => ⟨S10000x32, .f32⟩
  | .local _ .vmem, ⟨19, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S10000x32_S10000x32 : S10000x32.ShapeCasts S10000x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32.size a ≤ S32.size a
  hwx3_1 : ∀ i : grid3.Coords, EltTy.bits .f32 = 32 ∨ (Rect.block (s := S32) S32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 95
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x32, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x32, .f32⟩
  | .hbm, ⟨86, _⟩ => ⟨S1700000x32, .f32⟩
  | .hbm, ⟨87, _⟩ => ⟨S1700000x32, .f32⟩
  | .hbm, ⟨88, _⟩ => ⟨S_, .f32⟩
  | .hbm, ⟨89, _⟩ => ⟨S100000x32, .f32⟩
  | .hbm, ⟨90, _⟩ => ⟨S1700000x1, .i32⟩
  | .hbm, ⟨91, _⟩ => ⟨S100000x32, .f32⟩
  | .hbm, ⟨92, _⟩ => ⟨S1x32, .f32⟩
  | .hbm, ⟨93, _⟩ => ⟨S100000x32, .f32⟩
  | .hbm, ⟨94, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The kernel program's run, with its result named.

  The program is nine segments: three stretches of host operations, the first kernel call, a stretch, the second and
  third calls, a stretch, the fourth call. Each segment takes the unscoped buffers from the contents at its entry to
  the contents at its exit, and the contents at the last exit are `W9`: every weakly fair execution terminates, faults
  nowhere, and ends with every unscoped buffer at `W9`. Read at the seven argument buffers that is the frame claim;
  read at the result buffer as well, it says where the result ends: at `W9` of that buffer.
-/
import proofs.«134658_j80487687127270_1_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, its result buffer at the last
    boundary's contents and its seven arguments as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Layers

end
-- ==== Proof.Norm.lean ====
/-
  The graph's normalisation, read off the kernel program's first host operations.

  Before its first kernel call the kernel program runs the same 45 host operations as the reference: it appends the
  self loops to the edge lists (sources, destinations, weights), sums the weights into each destination's degree,
  takes the inverse square root where the degree is positive, and multiplies each edge's weight by the two factors of
  its endpoints. So at the first call's entry the source list, the destination list and the normalised weights are
  the reference's own stages of the edge arguments, and the seven arguments are as launched (no operation writes one).
  Nothing here depends on how floats are read: the statements hold at every float instance.
-/
import proofs.«134658_j80487687127270_1_alg».proof.Proof.Gen.KernelIdeal.Frame
import proofs.«134658_j80487687127270_1_alg».proof.Proof.Gen.ReferenceIdeal.Read
import Idealize.ShloMosaic.Lib.StableHlo.Run

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

/-- Running one list of operations after another is running their concatenation. -/
theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => simp only [List.cons_append, StableHlo.after_cons, ih]

variable {F : FTy → Type} [FloatOps F]
variable (m : (ℓ : Loc nD τ sig) → Buf (Elt F) ℓ) (ρ : Dev nD → PrngReg)

/-- The contents at the first call's entry are the launch contents after the 45 operations, in order. -/
theorem entry1_flat (c : Dev nD) :
    W3 m ρ c = StableHlo.after (hostOps0 ++ hostOps0_1 ++ hostOps0_2) (W0 m ρ c) := by
  rw [after_append, after_append]

set_option maxHeartbeats 4000000 in
/-- The normalised edge weights at the first call's entry. -/
theorem entry1_weights (c : Dev nD) :
    W3 m ρ c (Proc.devRef .tc main_v33) = Cert.ReferenceIdeal.Read.val_main_v33 (F := F) (m ((c : Thread nD τ).loc main_arg1)) (m ((c : Thread nD τ).loc main_arg2)) := by
  rw [entry1_flat]
  simp only [hostOps0, hostOps0_1, hostOps0_2, List.cons_append, List.nil_append]
  after_results_simp
  repeat (first
    | rw [reshape_result] | rw [unary_result] | rw [binary_result] | rw [nullary_result] | rw [ternary_result]
    | (rw [reshape_result_ne]; rotate_left; decide) | (rw [unary_result_ne]; rotate_left; decide)
    | (rw [binary_result_ne]; rotate_left; decide) | (rw [nullary_result_ne]; rotate_left; decide)
    | (rw [ternary_result_ne]; rotate_left; decide))
  rfl

set_option maxHeartbeats 4000000 in
/-- The edges' sources, self loops appended, at the first call's entry. -/
theorem entry1_sources (c : Dev nD) :
    W3 m ρ c (Proc.devRef .tc main_v3) = Cert.ReferenceIdeal.Read.val_main_v3 (F := F) (m ((c : Thread nD τ).loc main_arg1)) := by
  rw [entry1_flat]
  simp only [hostOps0, hostOps0_1, hostOps0_2, List.cons_append, List.nil_append]
  after_results_simp
  repeat (first
    | rw [reshape_result] | rw [unary_result] | rw [binary_result] | rw [nullary_result] | rw [ternary_result]
    | (rw [reshape_result_ne]; rotate_left; decide) | (rw [unary_result_ne]; rotate_left; decide)
    | (rw [binary_result_ne]; rotate_left; decide) | (rw [nullary_result_ne]; rotate_left; decide)
    | (rw [ternary_result_ne]; rotate_left; decide))
  rfl

set_option maxHeartbeats 4000000 in
/-- The edges' destinations, self loops appended, at the first call's entry. -/
theorem entry1_dests (c : Dev nD) :
    W3 m ρ c (Proc.devRef .tc main_v6) = Cert.ReferenceIdeal.Read.val_main_v6 (F := F) (m ((c : Thread nD τ).loc main_arg1)) := by
  rw [entry1_flat]
  simp only [hostOps0, hostOps0_1, hostOps0_2, List.cons_append, List.nil_append]
  after_results_simp
  repeat (first
    | rw [reshape_result] | rw [unary_result] | rw [binary_result] | rw [nullary_result] | rw [ternary_result]
    | (rw [reshape_result_ne]; rotate_left; decide) | (rw [unary_result_ne]; rotate_left; decide)
    | (rw [binary_result_ne]; rotate_left; decide) | (rw [nullary_result_ne]; rotate_left; decide)
    | (rw [ternary_result_ne]; rotate_left; decide))
  rfl

set_option maxHeartbeats 4000000 in
/-- Argument 0 is as launched at the first call's entry. -/
theorem entry1_arg0 (c : Dev nD) :
    W3 m ρ c (Proc.devRef .tc main_arg0) = (m ((c : Thread nD τ).loc main_arg0)) := by
  rw [entry1_flat]
  simp only [hostOps0, hostOps0_1, hostOps0_2, List.cons_append, List.nil_append]
  after_results_simp
  repeat (first
    | rw [reshape_result] | rw [unary_result] | rw [binary_result] | rw [nullary_result] | rw [ternary_result]
    | (rw [reshape_result_ne]; rotate_left; decide) | (rw [unary_result_ne]; rotate_left; decide)
    | (rw [binary_result_ne]; rotate_left; decide) | (rw [nullary_result_ne]; rotate_left; decide)
    | (rw [ternary_result_ne]; rotate_left; decide))

set_option maxHeartbeats 4000000 in
/-- Argument 3 is as launched at the first call's entry. -/
theorem entry1_arg3 (c : Dev nD) :
    W3 m ρ c (Proc.devRef .tc main_arg3) = (m ((c : Thread nD τ).loc main_arg3)) := by
  rw [entry1_flat]
  simp only [hostOps0, hostOps0_1, hostOps0_2, List.cons_append, List.nil_append]
  after_results_simp
  repeat (first
    | rw [reshape_result] | rw [unary_result] | rw [binary_result] | rw [nullary_result] | rw [ternary_result]
    | (rw [reshape_result_ne]; rotate_left; decide) | (rw [unary_result_ne]; rotate_left; decide)
    | (rw [binary_result_ne]; rotate_left; decide) | (rw [nullary_result_ne]; rotate_left; decide)
    | (rw [ternary_result_ne]; rotate_left; decide))

set_option maxHeartbeats 4000000 in
/-- Argument 4 is as launched at the first call's entry. -/
theorem entry1_arg4 (c : Dev nD) :
    W3 m ρ c (Proc.devRef .tc main_arg4) = (m ((c : Thread nD τ).loc main_arg4)) := by
  rw [entry1_flat]
  simp only [hostOps0, hostOps0_1, hostOps0_2, List.cons_append, List.nil_append]
  after_results_simp
  repeat (first
    | rw [reshape_result] | rw [unary_result] | rw [binary_result] | rw [nullary_result] | rw [ternary_result]
    | (rw [reshape_result_ne]; rotate_left; decide) | (rw [unary_result_ne]; rotate_left; decide)
    | (rw [binary_result_ne]; rotate_left; decide) | (rw [nullary_result_ne]; rotate_left; decide)
    | (rw [ternary_result_ne]; rotate_left; decide))

set_option maxHeartbeats 4000000 in
/-- Argument 5 is as launched at the first call's entry. -/
theorem entry1_arg5 (c : Dev nD) :
    W3 m ρ c (Proc.devRef .tc main_arg5) = (m ((c : Thread nD τ).loc main_arg5)) := by
  rw [entry1_flat]
  simp only [hostOps0, hostOps0_1, hostOps0_2, List.cons_append, List.nil_append]
  after_results_simp
  repeat (first
    | rw [reshape_result] | rw [unary_result] | rw [binary_result] | rw [nullary_result] | rw [ternary_result]
    | (rw [reshape_result_ne]; rotate_left; decide) | (rw [unary_result_ne]; rotate_left; decide)
    | (rw [binary_result_ne]; rotate_left; decide) | (rw [nullary_result_ne]; rotate_left; decide)
    | (rw [ternary_result_ne]; rotate_left; decide))

set_option maxHeartbeats 4000000 in
/-- Argument 6 is as launched at the first call's entry. -/
theorem entry1_arg6 (c : Dev nD) :
    W3 m ρ c (Proc.devRef .tc main_arg6) = (m ((c : Thread nD τ).loc main_arg6)) := by
  rw [entry1_flat]
  simp only [hostOps0, hostOps0_1, hostOps0_2, List.cons_append, List.nil_append]
  after_results_simp
  repeat (first
    | rw [reshape_result] | rw [unary_result] | rw [binary_result] | rw [nullary_result] | rw [ternary_result]
    | (rw [reshape_result_ne]; rotate_left; decide) | (rw [unary_result_ne]; rotate_left; decide)
    | (rw [binary_result_ne]; rotate_left; decide) | (rw [nullary_result_ne]; rotate_left; decide)
    | (rw [ternary_result_ne]; rotate_left; decide))

end Cert.KernelIdeal.Layers

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibRowBlockProduct.lean ====
/-
  A block of rows of a matrix product is the product of that block of rows.

  Let A be an M × k matrix, B a k × n matrix, and X an mb × k matrix whose row p is row r of A. Then the product
  X · B accumulated into zero has, at entry (p, q), the value of the whole product A · B at entry (r, q): both are
  the sum over the k contracted coordinates c of A(r, c) · B(c, q). The left side is the matrix unit's product
  started from an accumulator of zeros; the right side is the host's `dot_general`. Only the two rows have to agree,
  entry by entry; nothing is asked of the other rows, and no entry has to be finite (a finite sum of products on the
  extended reals is a function of its terms).
-/
import proofs.«134658_j80487687127270_1_alg».proof.Proof.LibPlainMatmul
import proofs.«134658_j80487687127270_1_alg».proof.Proof.LibPlainDotGeneral

open scoped BigOperators

namespace Idealize.ShloMosaic.ValueIdx

open Idealize.ShloMosaic

/-- Row `p` of the block product `X · Y` (into zero) is row `r` of the whole product `A · B`, when row `p` of `X` is
    row `r` of `A` and column `q` of `Y` is column `q` of `B`. -/
theorem matmul_rowblock_apply {M mb k n : ℕ} {φ₁ φ₂ ψ₁ ψ₂ : FTy}
    (wb : DotDims.WF ⟨2, ![mb, k]⟩ ⟨2, ![k, n]⟩ ⟨2, ![mb, n]⟩ [1] [0] [0] [1] [] [])
    (wa : DotDims.WF ⟨2, ![M, k]⟩ ⟨2, ![k, n]⟩ ⟨2, ![M, n]⟩ [1] [0] [0] [1] [] [])
    (prec prec' : Option ContractPrecision)
    (A : FVec Ideal ⟨2, ![M, k]⟩ ψ₁) (B : FVec Ideal ⟨2, ![k, n]⟩ ψ₂)
    (X : FVec Ideal ⟨2, ![mb, k]⟩ φ₁) (Y : FVec Ideal ⟨2, ![k, n]⟩ φ₂)
    (p : Fin mb) (q : Fin n) (r : Fin M)
    (hX : ∀ c : Fin k, X (ix2 p c) = A (ix2 r c)) (hY : ∀ c : Fin k, Y (ix2 c q) = B (ix2 c q)) :
    matmul (⟨[1], [0], [0], [1], [], [], wb⟩ : DotDims ⟨2, ![mb, k]⟩ ⟨2, ![k, n]⟩ ⟨2, ![mb, n]⟩) prec X Y
        (constant (F := Ideal) ⟨2, ![mb, n]⟩ .f32 0x00000000#32) (ix2 p q)
      = Host.dotGeneral (⟨[1], [0], [0], [1], [], [], wa⟩ : DotDims ⟨2, ![M, k]⟩ ⟨2, ![k, n]⟩ ⟨2, ![M, n]⟩) prec' A B (ix2 r q) := by
  rw [matmul_plain_zero_apply wb prec X Y p q, dotGeneral_plain_apply wa prec' A B r q]
  exact Finset.sum_congr rfl fun c _ => by rw [hX c, hY c]

end Idealize.ShloMosaic.ValueIdx
-- ==== Proof.Project1.lean ====
/-
  The first projection, block by block.

  The first kernel call multiplies, at grid point t, the 10000 rows t·10000 … t·10000 + 9999 of its left operand X
  (100000 × 64) by the whole right operand W (64 × 64), into a zero accumulator, and writes the product back to the
  same rows of its result. Entry (p, q) of that block is the sum over the 64 contracted coordinates k of
  X(t·10000 + p, k) · W(k, q), which is entry (t·10000 + p, q) of the whole product X · W. The ten blocks tile the
  100000 rows, so after the call the result array holds X · W — the host's dot_general of the two arrays.
  A change of float format is the identity on the extended reals, so the bf16 rounding of the operands is not seen.
-/
import proofs.«134658_j80487687127270_1_alg».proof.Proof.Gen.KernelIdeal.Frame
import proofs.«134658_j80487687127270_1_alg».proof.Proof.Gen.ReferenceIdeal.Read
import proofs.«134658_j80487687127270_1_alg».proof.Proof.LibRowBlockProduct
import Idealize.ShloMosaic.Lib.Pipeline.Value
import Idealize.ShloMosaic.Lib.ValueIdx

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

/-- The offsets of a whole-block access are all zero. -/
theorem offsets_zero : (![0, 0] : Fin 2 → Nat) = fun _ => 0 := funext fun a => by fin_cases a <;> rfl

/-- One entry of a block product: row `p` of the block is row `r` of the whole left operand. -/
theorem project1_entry (A : FVec Ideal Cert.ReferenceIdeal.S100000x64 .f32) (B : FVec Ideal S64x64 .f32)
    (x0 : Vec Ideal S10000x64 .f32) (x1 : Vec Ideal S64x64 .f32) (p : Fin 10000) (q : Fin 64) (r : Fin 100000)
    (h0 : ∀ k : Fin 64, x0 (ix2 p k) = A (ix2 r k)) (h1 : ∀ k : Fin 64, x1 (ix2 k q) = B (ix2 k q)) :
    k0_pay1 (F := Ideal) x0 x1 (ix2 p q)
      = Host.dotGeneral (F := Ideal) Cert.ReferenceIdeal.dot_S100000x64_S64x64_S100000x64_1_0_0_1_n_n none A B (ix2 r q) := by
  unfold k0_pay1
  exact matmul_rowblock_apply _ _ none none A B _ _ p q r h0 h1

variable (V : (c : Dev nD) → (b : Ref sig .tc) → Buf (Elt Ideal) ((c : Thread nD τ).loc b))

/-- The grid has ten points. -/
theorem points0 (t : Fin cfg0.N) : t.val < 10 := lt_of_lt_of_eq t.isLt N_0

/-- The index maps over the grid: the left operand and the result move one block of rows per point; the right operand stays. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays as the call finds them. -/
theorem flushed0 (c : Dev nD) (t : Fin cfg0.N) :
    (dat0 V c).flushed 2 t = ((cfg0.win 2).blk t).view.read (Elt Ideal)
      (Cert.ReferenceIdeal.Read.val_main_v34 (F := Ideal) (V c main_arg0) (V c main_arg3)) := by
  show (cfg0.win 2).cut (grid0.coords t) ((dat0 V c).after 2 t) = _
  rw [after0_2]
  unfold out0_2
  rw [View.canon_unit_zero offsets_zero]
  simp only [View.ld_unit_zero (S := S10000x64) offsets_zero, View.ld_unit_zero (S := S64x64) offsets_zero]
  funext j
  obtain ⟨p, q, rfl⟩ : ∃ (p : Fin 10000) (q : Fin 64), j = ix2 p q := ⟨j 0, j 1, eq_ix2 j⟩
  obtain ⟨e00, e01, e10, e11, e20, e21⟩ := index_facts0 t
  have ht := points0 t
  show k0_pay1 (F := Ideal) (iblk0 V c 0 t) (iblk0 V c 1 t) (ix2 p q)
    = Cert.ReferenceIdeal.Read.val_main_v34 (F := Ideal) (V c main_arg0) (V c main_arg3) (((cfg0.win 2).blk t).view.emb (ix2 p q))
  have hr : t.val * 10000 + p.val < 100000 := by have := p.isLt; omega
  have hout : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  rw [hout]
  unfold Cert.ReferenceIdeal.Read.val_main_v34
  refine project1_entry _ _ (iblk0 V c 0 t) (iblk0 V c 1 t) p q ⟨t.val * 10000 + p.val, hr⟩ (fun k => ?_) (fun k => ?_)
  · show V c main_arg0 (((cfg0.win 0).blk t).view.emb (ix2 p k)) = V c main_arg0 (ix2 (⟨t.val * 10000 + p.val, hr⟩ : Fin 100000) k)
    have h : ((cfg0.win 0).blk t).view.emb (ix2 p k) = ix2 (⟨t.val * 10000 + p.val, hr⟩ : Fin 100000) k := by
      funext a; apply Fin.ext
      match a with
      | ⟨0, _⟩ => show win0_0.index t (0 : Fin 2) * 10000 + 1 * p.val = t.val * 10000 + p.val; omega
      | ⟨1, _⟩ => show win0_0.index t (1 : Fin 2) * 64 + 1 * k.val = k.val; omega
    rw [h]
  · show V c main_arg3 (((cfg0.win 1).blk t).view.emb (ix2 k q)) = V c main_arg3 (ix2 k q)
    have h : ((cfg0.win 1).blk t).view.emb (ix2 k q) = ix2 k q := by
      funext a; apply Fin.ext
      match a with
      | ⟨0, _⟩ => show win0_1.index t (0 : Fin 2) * 64 + 1 * k.val = k.val; omega
      | ⟨1, _⟩ => show win0_1.index t (1 : Fin 2) * 64 + 1 * q.val = q.val; omega
    rw [h]

/-- An index of the result array is in point `t`'s block iff each coordinate is in the block's range on its axis. -/
theorem mem_block0 (t : Fin cfg0.N) (i : Cert.ReferenceIdeal.S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- Row `r` of the result is in the block of point `r / 10000`. -/
theorem cover0 (i : Cert.ReferenceIdeal.S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := by rw [show cfg0.N = 10 from N_0]; omega
  refine ⟨⟨(i 0).val / 10000, hN⟩, flush0_2 _, ?_⟩
  rw [mem_block0]
  obtain ⟨-, -, -, -, e20, e21⟩ := index_facts0 ⟨(i 0).val / 10000, hN⟩
  have e20' : win0_2.index ⟨(i 0).val / 10000, hN⟩ (0 : Fin 2) = (i 0).val / 10000 := e20
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 64 ≤ (i 1).val ∧ (i 1).val < win0_2.index ⟨(i 0).val / 10000, hN⟩ (1 : Fin 2) * 64 + 64; omega

/-- After the first call its result array holds the whole product of the two arrays the call found. -/
theorem project1_array (c : Dev nD) :
    (dat0 V c).arrAt 2 cfg0.N = Cert.ReferenceIdeal.Read.val_main_v34 (F := Ideal) (V c main_arg0) (V c main_arg3) :=
  (dat0 V c).arrAt_eq_of_cover 2 _ (fun t _ => flushed0 V c t) cover0

end Cert.KernelIdeal.Layers

end
-- ==== Proof.Stages.lean ====
/-
  The layers of the graph convolution as functions of whole arrays.

  Both programs compute  out = Â · relu(Â · (X·W₁) + b₁) · W₂ + b₂  with the same normalised adjacency Â, applied the same
  way: gather the rows of the projected features at the edges' sources, scale each by its edge's weight, and add it
  into the row of the edge's destination. Here each step is named as one function of its operands:
  the aggregation of a projected feature array (`aggregate1`, `aggregate2`: the edge lists and weights enter only through
  stages that do not depend on the features), bias followed by the rectifier (`activate`), the second projection
  (`project2`) and the last bias (`addBias`). The reference's result is their composition, by unfolding its stages;
  the aggregations are never opened.
-/
import proofs.«134658_j80487687127270_1_alg».proof.Proof.Gen.ReferenceIdeal.Read

set_option maxRecDepth 16384

noncomputable section

namespace Cert.ReferenceIdeal.Stages

open Cert.ReferenceIdeal Cert.ReferenceIdeal.Read Idealize.ShloMosaic Idealize.ShloMosaic.TcCoe

/-- The first layer's messages gathered, weighted and summed into their destinations, for projected features `h`. -/
def aggregate1 (x1 : (⟨S2x1600000, .i32⟩ : BufTy).Contents (Elt Ideal)) (x2 : (⟨S1600000, .f32⟩ : BufTy).Contents (Elt Ideal)) (h : FVec Ideal S100000x64 .f32) : FVec Ideal S100000x64 .f32 :=
  Host.scatterAdd (F := Ideal) scatter_S100000x64_S1700000x1_S1700000x64_1_0_0_1 (val_main_v45 (F := Ideal)) (val_main_v46 (F := Ideal) x1)
    (mulf (F := Ideal) (val_main_v43 (F := Ideal) x1 x2) (Host.gather gather_S100000x64_S1700000x1_S1700000x64_1_0_n_n_0_1_164 h (val_main_v41 (F := Ideal) x1)))

/-- Bias, then the rectifier: `max (a + b) 0`, the bias broadcast over the rows. -/
def activate (a : FVec Ideal S100000x64 .f32) (b : FVec Ideal S64 .f32) : FVec Ideal S100000x64 .f32 :=
  maximumf (F := Ideal) (addf (F := Ideal) a (val_main_v49 (F := Ideal) b)) (val_main_call1_v0 (F := Ideal))

/-- The second projection: the product of the hidden features by the second weight matrix. -/
def project2 (h : FVec Ideal S100000x64 .f32) (w : FVec Ideal S64x32 .f32) : FVec Ideal S100000x32 .f32 :=
  Host.dotGeneral (F := Ideal) dot_S100000x64_S64x32_S100000x32_1_0_0_1_n_n none h w

/-- The second layer's messages gathered, weighted and summed into their destinations, for projected features `h`. -/
def aggregate2 (x1 : (⟨S2x1600000, .i32⟩ : BufTy).Contents (Elt Ideal)) (x2 : (⟨S1600000, .f32⟩ : BufTy).Contents (Elt Ideal)) (h : FVec Ideal S100000x32 .f32) : FVec Ideal S100000x32 .f32 :=
  Host.scatterAdd (F := Ideal) scatter_S100000x32_S1700000x1_S1700000x32_1_0_0_1 (val_main_v63 (F := Ideal)) (val_main_v64 (F := Ideal) x1)
    (mulf (F := Ideal) (val_main_v61 (F := Ideal) x1 x2) (Host.gather gather_S100000x32_S1700000x1_S1700000x32_1_0_n_n_0_1_132 h (val_main_v59 (F := Ideal) x1)))

/-- The last bias, broadcast over the rows. -/
def addBias (a : FVec Ideal S100000x32 .f32) (b : FVec Ideal S32 .f32) : FVec Ideal S100000x32 .f32 :=
  addf (F := Ideal) a (val_main_v67 (F := Ideal) b)

/-- The reference's result is the composition of the layers. -/
theorem result_eq (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal))
    (x4 : (⟨S64, .f32⟩ : BufTy).Contents (Elt Ideal)) (x5 : (⟨S64x32, .f32⟩ : BufTy).Contents (Elt Ideal)) (x6 : (⟨S32, .f32⟩ : BufTy).Contents (Elt Ideal)) :
    val_main_v68 (F := Ideal) x0 x1 x2 x3 x4 x5 x6
      = addBias (aggregate2 x1 x2 (project2 (activate (aggregate1 x1 x2 (val_main_v34 (F := Ideal) x0 x3)) x4) x5)) x6 := by
  unfold val_main_v68 val_main_v65 val_main_v62 val_main_v60 val_main_v52 val_main_v51 val_main_v50 val_main_v47 val_main_v44 val_main_v42
  rfl

end Cert.ReferenceIdeal.Stages

end
-- ==== Proof.Activate.lean ====
/-
  Bias and rectifier, block by block.

  The second kernel call takes, at grid point t, the 10000 rows t·10000 … t·10000 + 9999 of the aggregated features A
  (100000 × 64) and the whole bias vector b (64), and writes max(A(r, q) + b(q), 0) back to the same rows of its
  result: the bias row is broadcast over the block's rows, the zero over the block. The ten blocks tile the 100000
  rows, so after the call the result array holds max(A + b, 0) entry by entry — the host's broadcast, add and maximum.
-/
import proofs.«134658_j80487687127270_1_alg».proof.Proof.Gen.KernelIdeal.Frame
import proofs.«134658_j80487687127270_1_alg».proof.Proof.Stages
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

/-- The offsets of a whole-block access are all zero (a matrix block; the bias vector). -/
theorem offsets_zero_act : (![0, 0] : Fin 2 → Nat) = fun _ => 0 := funext fun a => by fin_cases a <;> rfl
theorem offset_zero_act : (![0] : Fin 1 → Nat) = fun _ => 0 := funext fun a => by fin_cases a; rfl

/-- One entry of the block: row `p` of the block is row `r` of the array, and the bias is read at the column. -/
theorem activate_entry (a : FVec Ideal Cert.ReferenceIdeal.S100000x64 .f32) (b : FVec Ideal Cert.ReferenceIdeal.S64 .f32)
    (x0 : Vec Ideal S10000x64 .f32) (x1 : Vec Ideal S64 .f32) (p : Fin 10000) (q : Fin 64) (r : Fin 100000)
    (h0 : x0 (ix2 p q) = a (ix2 r q)) (h1 : x1 (ix1 q) = b (ix1 q)) :
    k1_pay1 (F := Ideal) x0 x1 (ix2 p q) = Cert.ReferenceIdeal.Stages.activate a b (ix2 r q) := by
  unfold k1_pay1 Cert.ReferenceIdeal.Stages.activate
  show max (shapeCast S10000x64 x0 shapeCasts_S10000x64_S10000x64 (ix2 p q) + broadcastTo S10000x64 (shapeCast S1x64 x1 shapeCasts_S64_S1x64) broadcasts_S1x64_S10000x64 (ix2 p q)) (Scalar.ofBits (F := Ideal) .f32 0x00000000#32)
     = max (a (ix2 r q) + Cert.ReferenceIdeal.Read.val_main_v49 (F := Ideal) b (ix2 r q)) (Cert.ReferenceIdeal.Read.val_main_call1_v0 (F := Ideal) (ix2 r q))
  have e : Cert.ReferenceIdeal.Read.idx_main_v48 (Cert.ReferenceIdeal.Read.idx_main_v49 (ix2 r q)) = ix1 q := funext fun d => by match d with | ⟨0, _⟩ => rfl
  rw [shapeCast_self, broadcastTo_1b_ab_apply, shapeCast_a_1a_apply, h0, h1, Cert.ReferenceIdeal.Read.val_main_v49_apply, Cert.ReferenceIdeal.Read.val_main_v48_apply, e, Cert.ReferenceIdeal.Read.val_main_call1_v0_apply]
  rfl

variable (V : (c : Dev nD) → (b : Ref sig .tc) → Buf (Elt Ideal) ((c : Thread nD τ).loc b))

/-- The grid has ten points. -/
theorem points1 (t : Fin cfg1.N) : t.val < 10 := lt_of_lt_of_eq t.isLt N_1

/-- The index maps over the grid: the operand and the result move one block of rows per point; the bias stays. -/
theorem index_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point `t` writes back is block `t` of the layer applied to the two arrays as the call finds them. -/
theorem flushed1 (c : Dev nD) (t : Fin cfg1.N) :
    (dat1 V c).flushed 2 t = ((cfg1.win 2).blk t).view.read (Elt Ideal) (Cert.ReferenceIdeal.Stages.activate (V c main_v47) (V c main_arg4)) := by
  show (cfg1.win 2).cut (grid1.coords t) ((dat1 V c).after 2 t) = _
  rw [after1_2]
  unfold out1_2
  rw [View.canon_unit_zero offsets_zero_act]
  simp only [View.ld_unit_zero (S := S10000x64) offsets_zero_act, View.ld_unit_zero (S := S64) offset_zero_act]
  funext j
  obtain ⟨p, q, rfl⟩ : ∃ (p : Fin 10000) (q : Fin 64), j = ix2 p q := ⟨j 0, j 1, eq_ix2 j⟩
  obtain ⟨e00, e01, e10, e20, e21⟩ := index_facts1 t
  have ht := points1 t
  show k1_pay1 (F := Ideal) (iblk1 V c 0 t) (iblk1 V c 1 t) (ix2 p q)
    = Cert.ReferenceIdeal.Stages.activate (V c main_v47) (V c main_arg4) (((cfg1.win 2).blk t).view.emb (ix2 p q))
  have hr : t.val * 10000 + p.val < 100000 := by have := p.isLt; omega
  have hout : ((cfg1.win 2).blk t).view.emb (ix2 p q) = ix2 (⟨t.val * 10000 + p.val, hr⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  rw [hout]
  refine activate_entry _ _ (iblk1 V c 0 t) (iblk1 V c 1 t) p q ⟨t.val * 10000 + p.val, hr⟩ ?_ ?_
  · show V c main_v47 (((cfg1.win 0).blk t).view.emb (ix2 p q)) = V c main_v47 (ix2 (⟨t.val * 10000 + p.val, hr⟩ : Fin 100000) q)
    have h : ((cfg1.win 0).blk t).view.emb (ix2 p q) = ix2 (⟨t.val * 10000 + p.val, hr⟩ : Fin 100000) q := by
      funext a; apply Fin.ext
      match a with
      | ⟨0, _⟩ => show win1_0.index t (0 : Fin 2) * 10000 + 1 * p.val = t.val * 10000 + p.val; omega
      | ⟨1, _⟩ => show win1_0.index t (1 : Fin 2) * 64 + 1 * q.val = q.val; omega
    rw [h]
  · show V c main_arg4 (((cfg1.win 1).blk t).view.emb (ix1 q)) = V c main_arg4 (ix1 q)
    have h : ((cfg1.win 1).blk t).view.emb (ix1 q) = ix1 q := by
      funext a; apply Fin.ext
      match a with
      | ⟨0, _⟩ => show win1_1.index t (0 : Fin 1) * 64 + 1 * q.val = q.val; omega
    rw [h]

/-- An index of the result array is in point `t`'s block iff each coordinate is in the block's range on its axis. -/
theorem mem_block1 (t : Fin cfg1.N) (i : Cert.ReferenceIdeal.S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

/-- Row `r` of the result is in the block of point `r / 10000`. -/
theorem cover1 (i : Cert.ReferenceIdeal.S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 10000 < cfg1.N := by rw [show cfg1.N = 10 from N_1]; omega
  refine ⟨⟨(i 0).val / 10000, hN⟩, flush1_2 _, ?_⟩
  rw [mem_block1]
  obtain ⟨-, -, -, e20, e21⟩ := index_facts1 ⟨(i 0).val / 10000, hN⟩
  have e20' : win1_2.index ⟨(i 0).val / 10000, hN⟩ (0 : Fin 2) = (i 0).val / 10000 := e20
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; omega
  | ⟨1, _⟩ => show win1_2.index ⟨(i 0).val / 10000, hN⟩ (1 : Fin 2) * 64 ≤ (i 1).val ∧ (i 1).val < win1_2.index ⟨(i 0).val / 10000, hN⟩ (1 : Fin 2) * 64 + 64; omega

/-- After the call its result array holds the layer applied to the two whole arrays the call found. -/
theorem activate_array (c : Dev nD) :
    (dat1 V c).arrAt 2 cfg1.N = Cert.ReferenceIdeal.Stages.activate (V c main_v47) (V c main_arg4) :=
  (dat1 V c).arrAt_eq_of_cover 2 _ (fun t _ => flushed1 V c t) cover1

end Cert.KernelIdeal.Layers

end
-- ==== Proof.Project2.lean ====
/-
  The second projection, block by block.

  The third kernel call multiplies, at grid point t, the 10000 rows t·10000 … t·10000 + 9999 of the hidden features H
  (100000 × 64) by the whole second weight matrix W (64 × 32), into a zero accumulator, and writes the product back to
  the same rows of its result. Entry (p, q) of that block is the sum over the 64 contracted coordinates k of
  H(t·10000 + p, k) · W(k, q): entry (t·10000 + p, q) of the whole product H · W. The ten blocks tile the 100000 rows,
  so after the call the result array holds H · W. A change of float format is the identity on the extended reals.
-/
import proofs.«134658_j80487687127270_1_alg».proof.Proof.Gen.KernelIdeal.Frame
import proofs.«134658_j80487687127270_1_alg».proof.Proof.Stages
import proofs.«134658_j80487687127270_1_alg».proof.Proof.LibRowBlockProduct
import Idealize.ShloMosaic.Lib.Pipeline.Value
import Idealize.ShloMosaic.Lib.ValueIdx

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

/-- The offsets of a whole-block access are all zero. -/
theorem offsets_zero_p2 : (![0, 0] : Fin 2 → Nat) = fun _ => 0 := funext fun a => by fin_cases a <;> rfl

/-- One entry of a block product: row `p` of the block is row `r` of the whole left operand. -/
theorem project2_entry (A : FVec Ideal Cert.ReferenceIdeal.S100000x64 .f32) (B : FVec Ideal Cert.ReferenceIdeal.S64x32 .f32)
    (x0 : Vec Ideal S10000x64 .f32) (x1 : Vec Ideal S64x32 .f32) (p : Fin 10000) (q : Fin 32) (r : Fin 100000)
    (h0 : ∀ k : Fin 64, x0 (ix2 p k) = A (ix2 r k)) (h1 : ∀ k : Fin 64, x1 (ix2 k q) = B (ix2 k q)) :
    k2_pay1 (F := Ideal) x0 x1 (ix2 p q) = Cert.ReferenceIdeal.Stages.project2 A B (ix2 r q) := by
  unfold k2_pay1 Cert.ReferenceIdeal.Stages.project2
  exact matmul_rowblock_apply _ _ none none A B _ _ p q r
    (fun k => (congrFun (shapeCast_self x0 shapeCasts_S10000x64_S10000x64) (ix2 p k)).trans (h0 k)) h1

variable (V : (c : Dev nD) → (b : Ref sig .tc) → Buf (Elt Ideal) ((c : Thread nD τ).loc b))

/-- The grid has ten points. -/
theorem points2 (t : Fin cfg2.N) : t.val < 10 := lt_of_lt_of_eq t.isLt N_2

/-- The index maps over the grid: the left operand and the result move one block of rows per point; the right operand stays. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the two arrays as the call finds them. -/
theorem flushed2 (c : Dev nD) (t : Fin cfg2.N) :
    (dat2 V c).flushed 2 t = ((cfg2.win 2).blk t).view.read (Elt Ideal) (Cert.ReferenceIdeal.Stages.project2 (V c main_v48) (V c main_arg5)) := by
  show (cfg2.win 2).cut (grid2.coords t) ((dat2 V c).after 2 t) = _
  rw [after2_2]
  unfold out2_2
  rw [View.canon_unit_zero offsets_zero_p2]
  simp only [View.ld_unit_zero (S := S10000x64) offsets_zero_p2, View.ld_unit_zero (S := S64x32) offsets_zero_p2]
  funext j
  obtain ⟨p, q, rfl⟩ : ∃ (p : Fin 10000) (q : Fin 32), j = ix2 p q := ⟨j 0, j 1, eq_ix2 j⟩
  obtain ⟨e00, e01, e10, e11, e20, e21⟩ := index_facts2 t
  have ht := points2 t
  show k2_pay1 (F := Ideal) (iblk2 V c 0 t) (iblk2 V c 1 t) (ix2 p q)
    = Cert.ReferenceIdeal.Stages.project2 (V c main_v48) (V c main_arg5) (((cfg2.win 2).blk t).view.emb (ix2 p q))
  have hr : t.val * 10000 + p.val < 100000 := by have := p.isLt; omega
  have hout : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 32 + 1 * q.val = q.val; omega
  rw [hout]
  refine project2_entry _ _ (iblk2 V c 0 t) (iblk2 V c 1 t) p q ⟨t.val * 10000 + p.val, hr⟩ (fun k => ?_) (fun k => ?_)
  · show V c main_v48 (((cfg2.win 0).blk t).view.emb (ix2 p k)) = V c main_v48 (ix2 (⟨t.val * 10000 + p.val, hr⟩ : Fin 100000) k)
    have h : ((cfg2.win 0).blk t).view.emb (ix2 p k) = ix2 (⟨t.val * 10000 + p.val, hr⟩ : Fin 100000) k := by
      funext a; apply Fin.ext
      match a with
      | ⟨0, _⟩ => show win2_0.index t (0 : Fin 2) * 10000 + 1 * p.val = t.val * 10000 + p.val; omega
      | ⟨1, _⟩ => show win2_0.index t (1 : Fin 2) * 64 + 1 * k.val = k.val; omega
    rw [h]
  · show V c main_arg5 (((cfg2.win 1).blk t).view.emb (ix2 k q)) = V c main_arg5 (ix2 k q)
    have h : ((cfg2.win 1).blk t).view.emb (ix2 k q) = ix2 k q := by
      funext a; apply Fin.ext
      match a with
      | ⟨0, _⟩ => show win2_1.index t (0 : Fin 2) * 64 + 1 * k.val = k.val; omega
      | ⟨1, _⟩ => show win2_1.index t (1 : Fin 2) * 32 + 1 * q.val = q.val; omega
    rw [h]

/-- An index of the result array is in point `t`'s block iff each coordinate is in the block's range on its axis. -/
theorem mem_block2 (t : Fin cfg2.N) (i : Cert.ReferenceIdeal.S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v49).slice (win2_2.rect t)).set ↔ _
  rw [View.set_slice_whole, Rect.mem_set_unit]
  exact Iff.rfl

/-- Row `r` of the result is in the block of point `r / 10000`. -/
theorem cover2 (i : Cert.ReferenceIdeal.S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : (i 0).val / 10000 < cfg2.N := by rw [show cfg2.N = 10 from N_2]; omega
  refine ⟨⟨(i 0).val / 10000, hN⟩, flush2_2 _, ?_⟩
  rw [mem_block2]
  obtain ⟨-, -, -, -, e20, e21⟩ := index_facts2 ⟨(i 0).val / 10000, hN⟩
  have e20' : win2_2.index ⟨(i 0).val / 10000, hN⟩ (0 : Fin 2) = (i 0).val / 10000 := e20
  intro a
  match a with
  | ⟨0, _⟩ => show win2_2.index ⟨(i 0).val / 10000, hN⟩ (0 : Fin 2) * 10000 ≤ (i 0).val ∧ (i 0).val < win2_2.index ⟨(i 0).val / 10000, hN⟩ (0 : Fin 2) * 10000 + 10000; omega
  | ⟨1, _⟩ => show win2_2.index ⟨(i 0).val / 10000, hN⟩ (1 : Fin 2) * 32 ≤ (i 1).val ∧ (i 1).val < win2_2.index ⟨(i 0).val / 10000, hN⟩ (1 : Fin 2) * 32 + 32; omega

/-- After the third call its result array holds the whole product of the two arrays the call found. -/
theorem project2_array (c : Dev nD) :
    (dat2 V c).arrAt 2 cfg2.N = Cert.ReferenceIdeal.Stages.project2 (V c main_v48) (V c main_arg5) :=
  (dat2 V c).arrAt_eq_of_cover 2 _ (fun t _ => flushed2 V c t) cover2

end Cert.KernelIdeal.Layers

end
-- ==== Proof.AddBias.lean ====
/-
  The last bias, block by block.

  The fourth kernel call takes, at grid point t, the 10000 rows t·10000 … t·10000 + 9999 of the aggregated features A
  (100000 × 32) and the whole bias vector b (32), and writes A(r, q) + b(q) back to the same rows of its result, the
  bias row broadcast over the block's rows. The ten blocks tile the 100000 rows, so after the call the result array
  holds A + b entry by entry — the host's broadcast and add.
-/
import proofs.«134658_j80487687127270_1_alg».proof.Proof.Gen.KernelIdeal.Frame
import proofs.«134658_j80487687127270_1_alg».proof.Proof.Stages
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat)
open Idealize.ShloMosaic.ValueIdx

/-- The offsets of a whole-block access are all zero (a matrix block; the bias vector). -/
theorem offsets_zero_bias : (![0, 0] : Fin 2 → Nat) = fun _ => 0 := funext fun a => by fin_cases a <;> rfl
theorem offset_zero_bias : (![0] : Fin 1 → Nat) = fun _ => 0 := funext fun a => by fin_cases a; rfl

/-- One entry of the block: row `p` of the block is row `r` of the array, and the bias is read at the column. -/
theorem addBias_entry (a : FVec Ideal Cert.ReferenceIdeal.S100000x32 .f32) (b : FVec Ideal Cert.ReferenceIdeal.S32 .f32)
    (x0 : Vec Ideal S10000x32 .f32) (x1 : Vec Ideal S32 .f32) (p : Fin 10000) (q : Fin 32) (r : Fin 100000)
    (h0 : x0 (ix2 p q) = a (ix2 r q)) (h1 : x1 (ix1 q) = b (ix1 q)) :
    k3_pay1 (F := Ideal) x0 x1 (ix2 p q) = Cert.ReferenceIdeal.Stages.addBias a b (ix2 r q) := by
  unfold k3_pay1 Cert.ReferenceIdeal.Stages.addBias
  show shapeCast S10000x32 x0 shapeCasts_S10000x32_S10000x32 (ix2 p q) + broadcastTo S10000x32 (shapeCast S1x32 x1 shapeCasts_S32_S1x32) broadcasts_S1x32_S10000x32 (ix2 p q)
     = a (ix2 r q) + Cert.ReferenceIdeal.Read.val_main_v67 (F := Ideal) b (ix2 r q)
  have e : Cert.ReferenceIdeal.Read.idx_main_v66 (Cert.ReferenceIdeal.Read.idx_main_v67 (ix2 r q)) = ix1 q := funext fun d => by match d with | ⟨0, _⟩ => rfl
  rw [shapeCast_self, broadcastTo_1b_ab_apply, shapeCast_a_1a_apply, h0, h1, Cert.ReferenceIdeal.Read.val_main_v67_apply, Cert.ReferenceIdeal.Read.val_main_v66_apply, e]

variable (V : (c : Dev nD) → (b : Ref sig .tc) → Buf (Elt Ideal) ((c : Thread nD τ).loc b))

/-- The grid has ten points. -/
theorem points3 (t : Fin cfg3.N) : t.val < 10 := lt_of_lt_of_eq t.isLt N_3

/-- The index maps over the grid: the operand and the result move one block of rows per point; the bias stays. -/
theorem index_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point `t` writes back is block `t` of the layer applied to the two arrays as the call finds them. -/
theorem flushed3 (c : Dev nD) (t : Fin cfg3.N) :
    (dat3 V c).flushed 2 t = ((cfg3.win 2).blk t).view.read (Elt Ideal) (Cert.ReferenceIdeal.Stages.addBias (V c main_v62) (V c main_arg6)) := by
  show (cfg3.win 2).cut (grid3.coords t) ((dat3 V c).after 2 t) = _
  rw [after3_2]
  unfold out3_2
  rw [View.canon_unit_zero offsets_zero_bias]
  simp only [View.ld_unit_zero (S := S10000x32) offsets_zero_bias, View.ld_unit_zero (S := S32) offset_zero_bias]
  funext j
  obtain ⟨p, q, rfl⟩ : ∃ (p : Fin 10000) (q : Fin 32), j = ix2 p q := ⟨j 0, j 1, eq_ix2 j⟩
  obtain ⟨e00, e01, e10, e20, e21⟩ := index_facts3 t
  have ht := points3 t
  show k3_pay1 (F := Ideal) (iblk3 V c 0 t) (iblk3 V c 1 t) (ix2 p q)
    = Cert.ReferenceIdeal.Stages.addBias (V c main_v62) (V c main_arg6) (((cfg3.win 2).blk t).view.emb (ix2 p q))
  have hr : t.val * 10000 + p.val < 100000 := by have := p.isLt; omega
  have hout : ((cfg3.win 2).blk t).view.emb (ix2 p q) = ix2 (⟨t.val * 10000 + p.val, hr⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 32 + 1 * q.val = q.val; omega
  rw [hout]
  refine addBias_entry _ _ (iblk3 V c 0 t) (iblk3 V c 1 t) p q ⟨t.val * 10000 + p.val, hr⟩ ?_ ?_
  · show V c main_v62 (((cfg3.win 0).blk t).view.emb (ix2 p q)) = V c main_v62 (ix2 (⟨t.val * 10000 + p.val, hr⟩ : Fin 100000) q)
    have h : ((cfg3.win 0).blk t).view.emb (ix2 p q) = ix2 (⟨t.val * 10000 + p.val, hr⟩ : Fin 100000) q := by
      funext a; apply Fin.ext
      match a with
      | ⟨0, _⟩ => show win3_0.index t (0 : Fin 2) * 10000 + 1 * p.val = t.val * 10000 + p.val; omega
      | ⟨1, _⟩ => show win3_0.index t (1 : Fin 2) * 32 + 1 * q.val = q.val; omega
    rw [h]
  · show V c main_arg6 (((cfg3.win 1).blk t).view.emb (ix1 q)) = V c main_arg6 (ix1 q)
    have h : ((cfg3.win 1).blk t).view.emb (ix1 q) = ix1 q := by
      funext a; apply Fin.ext
      match a with
      | ⟨0, _⟩ => show win3_1.index t (0 : Fin 1) * 32 + 1 * q.val = q.val; omega
    rw [h]

/-- An index of the result array is in point `t`'s block iff each coordinate is in the block's range on its axis. -/
theorem mem_block3 (t : Fin cfg3.N) (i : Cert.ReferenceIdeal.S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v63).slice (win3_2.rect t)).set ↔ _
  rw [View.set_slice_whole, Rect.mem_set_unit]
  exact Iff.rfl

/-- Row `r` of the result is in the block of point `r / 10000`. -/
theorem cover3 (i : Cert.ReferenceIdeal.S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : (i 0).val / 10000 < cfg3.N := by rw [show cfg3.N = 10 from N_3]; omega
  refine ⟨⟨(i 0).val / 10000, hN⟩, flush3_2 _, ?_⟩
  rw [mem_block3]
  obtain ⟨-, -, -, e20, e21⟩ := index_facts3 ⟨(i 0).val / 10000, hN⟩
  have e20' : win3_2.index ⟨(i 0).val / 10000, hN⟩ (0 : Fin 2) = (i 0).val / 10000 := e20
  intro a
  match a with
  | ⟨0, _⟩ => show win3_2.index ⟨(i 0).val / 10000, hN⟩ (0 : Fin 2) * 10000 ≤ (i 0).val ∧ (i 0).val < win3_2.index ⟨(i 0).val / 10000, hN⟩ (0 : Fin 2) * 10000 + 10000; omega
  | ⟨1, _⟩ => show win3_2.index ⟨(i 0).val / 10000, hN⟩ (1 : Fin 2) * 32 ≤ (i 1).val ∧ (i 1).val < win3_2.index ⟨(i 0).val / 10000, hN⟩ (1 : Fin 2) * 32 + 32; omega

/-- After the call its result array holds the layer applied to the two whole arrays the call found. -/
theorem addBias_array (c : Dev nD) :
    (dat3 V c).arrAt 2 cfg3.N = Cert.ReferenceIdeal.Stages.addBias (V c main_v62) (V c main_arg6) :=
  (dat3 V c).arrAt_eq_of_cover 2 _ (fun t _ => flushed3 V c t) cover3

end Cert.KernelIdeal.Layers

end
-- ==== Proof.Chain.lean ====
/-
  The kernel program's result, boundary by boundary.

  Between its four kernel calls the kernel program runs the reference's own host operations on the calls' results: the
  gather of the projected features at the edges' sources, the scaling by the normalised weights and the sum into the
  destinations. So the contents of the buffers that matter are, at each boundary,
    after call 1:  X·W₁;                         before call 2:  the first aggregation of it;
    after call 2:  max(· + b₁, 0);               after call 3:   its product with W₂;
    before call 4: the second aggregation;       after call 4:   that plus b₂ —
  with the edge lists, the normalised weights and the later calls' arguments carried along unchanged, since no call
  and no host operation in between writes them. The last line is the reference's result, stage for stage.
-/
import proofs.«134658_j80487687127270_1_alg».proof.Proof.Norm
import proofs.«134658_j80487687127270_1_alg».proof.Proof.Project1
import proofs.«134658_j80487687127270_1_alg».proof.Proof.Activate
import proofs.«134658_j80487687127270_1_alg».proof.Proof.Project2
import proofs.«134658_j80487687127270_1_alg».proof.Proof.AddBias

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first call: the projected features; everything else as at its entry -/

theorem exit1_features (c : Dev nD) : W4 m ρ c (Proc.devRef .tc main_v34) = (Cert.ReferenceIdeal.Read.val_main_v34 (F := Ideal) (m ((c : Thread nD τ).loc main_arg0)) (m ((c : Thread nD τ).loc main_arg3))) := by
  refine (W4_arr m ρ c 2).trans ((project1_array (V3 m ρ) c).trans ?_)
  show Cert.ReferenceIdeal.Read.val_main_v34 (F := Ideal) (W3 m ρ c (Proc.devRef .tc main_arg0)) (W3 m ρ c (Proc.devRef .tc main_arg3)) = _
  rw [entry1_arg0, entry1_arg3]
theorem exit1_weights (c : Dev nD) : W4 m ρ c (Proc.devRef .tc main_v33) = Cert.ReferenceIdeal.Read.val_main_v33 (F := Ideal) (m ((c : Thread nD τ).loc main_arg1)) (m ((c : Thread nD τ).loc main_arg2)) :=
  (W4_of_ne m ρ c main_v33 (by decide)).trans (entry1_weights m ρ c)
theorem exit1_sources (c : Dev nD) : W4 m ρ c (Proc.devRef .tc main_v3) = Cert.ReferenceIdeal.Read.val_main_v3 (F := Ideal) (m ((c : Thread nD τ).loc main_arg1)) :=
  (W4_of_ne m ρ c main_v3 (by decide)).trans (entry1_sources m ρ c)
theorem exit1_dests (c : Dev nD) : W4 m ρ c (Proc.devRef .tc main_v6) = Cert.ReferenceIdeal.Read.val_main_v6 (F := Ideal) (m ((c : Thread nD τ).loc main_arg1)) :=
  (W4_of_ne m ρ c main_v6 (by decide)).trans (entry1_dests m ρ c)
theorem exit1_arg4 (c : Dev nD) : W4 m ρ c (Proc.devRef .tc main_arg4) = (m ((c : Thread nD τ).loc main_arg4)) :=
  (W4_of_ne m ρ c main_arg4 (by decide)).trans (entry1_arg4 m ρ c)
theorem exit1_arg5 (c : Dev nD) : W4 m ρ c (Proc.devRef .tc main_arg5) = (m ((c : Thread nD τ).loc main_arg5)) :=
  (W4_of_ne m ρ c main_arg5 (by decide)).trans (entry1_arg5 m ρ c)
theorem exit1_arg6 (c : Dev nD) : W4 m ρ c (Proc.devRef .tc main_arg6) = (m ((c : Thread nD τ).loc main_arg6)) :=
  (W4_of_ne m ρ c main_arg6 (by decide)).trans (entry1_arg6 m ρ c)

/-! ## Before the second call: the first aggregation -/

set_option maxHeartbeats 4000000 in
theorem entry2_aggregated (c : Dev nD) : W5 m ρ c (Proc.devRef .tc main_v47) = (Cert.ReferenceIdeal.Stages.aggregate1 (m ((c : Thread nD τ).loc main_arg1)) (m ((c : Thread nD τ).loc main_arg2)) (Cert.ReferenceIdeal.Read.val_main_v34 (F := Ideal) (m ((c : Thread nD τ).loc main_arg0)) (m ((c : Thread nD τ).loc main_arg3)))) := by
  show StableHlo.after hostOps1 (W4 m ρ c) (Proc.devRef .tc main_v47) = _
  simp only [hostOps1]
  after_results_simp
  rw [exit1_weights, exit1_sources, exit1_dests, exit1_features]
  rfl
theorem entry2_weights (c : Dev nD) : W5 m ρ c (Proc.devRef .tc main_v33) = Cert.ReferenceIdeal.Read.val_main_v33 (F := Ideal) (m ((c : Thread nD τ).loc main_arg1)) (m ((c : Thread nD τ).loc main_arg2)) := by
  refine Eq.trans ?_ (exit1_weights m ρ c)
  show StableHlo.after hostOps1 (W4 m ρ c) (Proc.devRef .tc main_v33) = W4 m ρ c (Proc.devRef .tc main_v33)
  simp only [hostOps1]
  after_results
theorem entry2_sources (c : Dev nD) : W5 m ρ c (Proc.devRef .tc main_v3) = Cert.ReferenceIdeal.Read.val_main_v3 (F := Ideal) (m ((c : Thread nD τ).loc main_arg1)) := by
  refine Eq.trans ?_ (exit1_sources m ρ c)
  show StableHlo.after hostOps1 (W4 m ρ c) (Proc.devRef .tc main_v3) = W4 m ρ c (Proc.devRef .tc main_v3)
  simp only [hostOps1]
  after_results
theorem entry2_dests (c : Dev nD) : W5 m ρ c (Proc.devRef .tc main_v6) = Cert.ReferenceIdeal.Read.val_main_v6 (F := Ideal) (m ((c : Thread nD τ).loc main_arg1)) := by
  refine Eq.trans ?_ (exit1_dests m ρ c)
  show StableHlo.after hostOps1 (W4 m ρ c) (Proc.devRef .tc main_v6) = W4 m ρ c (Proc.devRef .tc main_v6)
  simp only [hostOps1]
  after_results
theorem entry2_arg4 (c : Dev nD) : W5 m ρ c (Proc.devRef .tc main_arg4) = (m ((c : Thread nD τ).loc main_arg4)) := by
  refine Eq.trans ?_ (exit1_arg4 m ρ c)
  show StableHlo.after hostOps1 (W4 m ρ c) (Proc.devRef .tc main_arg4) = W4 m ρ c (Proc.devRef .tc main_arg4)
  simp only [hostOps1]
  after_results
theorem entry2_arg5 (c : Dev nD) : W5 m ρ c (Proc.devRef .tc main_arg5) = (m ((c : Thread nD τ).loc main_arg5)) := by
  refine Eq.trans ?_ (exit1_arg5 m ρ c)
  show StableHlo.after hostOps1 (W4 m ρ c) (Proc.devRef .tc main_arg5) = W4 m ρ c (Proc.devRef .tc main_arg5)
  simp only [hostOps1]
  after_results
theorem entry2_arg6 (c : Dev nD) : W5 m ρ c (Proc.devRef .tc main_arg6) = (m ((c : Thread nD τ).loc main_arg6)) := by
  refine Eq.trans ?_ (exit1_arg6 m ρ c)
  show StableHlo.after hostOps1 (W4 m ρ c) (Proc.devRef .tc main_arg6) = W4 m ρ c (Proc.devRef .tc main_arg6)
  simp only [hostOps1]
  after_results

/-! ## After the second call: bias and rectifier -/

theorem exit2_hidden (c : Dev nD) : W6 m ρ c (Proc.devRef .tc main_v48) = (Cert.ReferenceIdeal.Stages.activate (Cert.ReferenceIdeal.Stages.aggregate1 (m ((c : Thread nD τ).loc main_arg1)) (m ((c : Thread nD τ).loc main_arg2)) (Cert.ReferenceIdeal.Read.val_main_v34 (F := Ideal) (m ((c : Thread nD τ).loc main_arg0)) (m ((c : Thread nD τ).loc main_arg3)))) (m ((c : Thread nD τ).loc main_arg4))) := by
  refine (W6_arr m ρ c 2).trans ((activate_array (V5 m ρ) c).trans ?_)
  show Cert.ReferenceIdeal.Stages.activate (W5 m ρ c (Proc.devRef .tc main_v47)) (W5 m ρ c (Proc.devRef .tc main_arg4)) = _
  rw [entry2_aggregated, entry2_arg4]
theorem exit2_weights (c : Dev nD) : W6 m ρ c (Proc.devRef .tc main_v33) = Cert.ReferenceIdeal.Read.val_main_v33 (F := Ideal) (m ((c : Thread nD τ).loc main_arg1)) (m ((c : Thread nD τ).loc main_arg2)) :=
  (W6_of_ne m ρ c main_v33 (by decide)).trans (entry2_weights m ρ c)
theorem exit2_sources (c : Dev nD) : W6 m ρ c (Proc.devRef .tc main_v3) = Cert.ReferenceIdeal.Read.val_main_v3 (F := Ideal) (m ((c : Thread nD τ).loc main_arg1)) :=
  (W6_of_ne m ρ c main_v3 (by decide)).trans (entry2_sources m ρ c)
theorem exit2_dests (c : Dev nD) : W6 m ρ c (Proc.devRef .tc main_v6) = Cert.ReferenceIdeal.Read.val_main_v6 (F := Ideal) (m ((c : Thread nD τ).loc main_arg1)) :=
  (W6_of_ne m ρ c main_v6 (by decide)).trans (entry2_dests m ρ c)
theorem exit2_arg5 (c : Dev nD) : W6 m ρ c (Proc.devRef .tc main_arg5) = (m ((c : Thread nD τ).loc main_arg5)) :=
  (W6_of_ne m ρ c main_arg5 (by decide)).trans (entry2_arg5 m ρ c)
theorem exit2_arg6 (c : Dev nD) : W6 m ρ c (Proc.devRef .tc main_arg6) = (m ((c : Thread nD τ).loc main_arg6)) :=
  (W6_of_ne m ρ c main_arg6 (by decide)).trans (entry2_arg6 m ρ c)

/-! ## After the third call: the second projection -/

theorem exit3_features (c : Dev nD) : W7 m ρ c (Proc.devRef .tc main_v49) = (Cert.ReferenceIdeal.Stages.project2 (Cert.ReferenceIdeal.Stages.activate (Cert.ReferenceIdeal.Stages.aggregate1 (m ((c : Thread nD τ).loc main_arg1)) (m ((c : Thread nD τ).loc main_arg2)) (Cert.ReferenceIdeal.Read.val_main_v34 (F := Ideal) (m ((c : Thread nD τ).loc main_arg0)) (m ((c : Thread nD τ).loc main_arg3)))) (m ((c : Thread nD τ).loc main_arg4))) (m ((c : Thread nD τ).loc main_arg5))) := by
  refine (W7_arr m ρ c 2).trans ((project2_array (V6 m ρ) c).trans ?_)
  show Cert.ReferenceIdeal.Stages.project2 (W6 m ρ c (Proc.devRef .tc main_v48)) (W6 m ρ c (Proc.devRef .tc main_arg5)) = _
  rw [exit2_hidden, exit2_arg5]
theorem exit3_weights (c : Dev nD) : W7 m ρ c (Proc.devRef .tc main_v33) = Cert.ReferenceIdeal.Read.val_main_v33 (F := Ideal) (m ((c : Thread nD τ).loc main_arg1)) (m ((c : Thread nD τ).loc main_arg2)) :=
  (W7_of_ne m ρ c main_v33 (by decide)).trans (exit2_weights m ρ c)
theorem exit3_sources (c : Dev nD) : W7 m ρ c (Proc.devRef .tc main_v3) = Cert.ReferenceIdeal.Read.val_main_v3 (F := Ideal) (m ((c : Thread nD τ).loc main_arg1)) :=
  (W7_of_ne m ρ c main_v3 (by decide)).trans (exit2_sources m ρ c)
theorem exit3_dests (c : Dev nD) : W7 m ρ c (Proc.devRef .tc main_v6) = Cert.ReferenceIdeal.Read.val_main_v6 (F := Ideal) (m ((c : Thread nD τ).loc main_arg1)) :=
  (W7_of_ne m ρ c main_v6 (by decide)).trans (exit2_dests m ρ c)
theorem exit3_arg6 (c : Dev nD) : W7 m ρ c (Proc.devRef .tc main_arg6) = (m ((c : Thread nD τ).loc main_arg6)) :=
  (W7_of_ne m ρ c main_arg6 (by decide)).trans (exit2_arg6 m ρ c)

/-! ## Before the fourth call: the second aggregation -/

set_option maxHeartbeats 4000000 in
theorem entry4_aggregated (c : Dev nD) : W8 m ρ c (Proc.devRef .tc main_v62) = (Cert.ReferenceIdeal.Stages.aggregate2 (m ((c : Thread nD τ).loc main_arg1)) (m ((c : Thread nD τ).loc main_arg2)) (Cert.ReferenceIdeal.Stages.project2 (Cert.ReferenceIdeal.Stages.activate (Cert.ReferenceIdeal.Stages.aggregate1 (m ((c : Thread nD τ).loc main_arg1)) (m ((c : Thread nD τ).loc main_arg2)) (Cert.ReferenceIdeal.Read.val_main_v34 (F := Ideal) (m ((c : Thread nD τ).loc main_arg0)) (m ((c : Thread nD τ).loc main_arg3)))) (m ((c : Thread nD τ).loc main_arg4))) (m ((c : Thread nD τ).loc main_arg5)))) := by
  show StableHlo.after hostOps3 (W7 m ρ c) (Proc.devRef .tc main_v62) = _
  simp only [hostOps3]
  after_results_simp
  rw [exit3_weights, exit3_sources, exit3_dests, exit3_features]
  rfl
theorem entry4_arg6 (c : Dev nD) : W8 m ρ c (Proc.devRef .tc main_arg6) = (m ((c : Thread nD τ).loc main_arg6)) := by
  refine Eq.trans ?_ (exit3_arg6 m ρ c)
  show StableHlo.after hostOps3 (W7 m ρ c) (Proc.devRef .tc main_arg6) = W7 m ρ c (Proc.devRef .tc main_arg6)
  simp only [hostOps3]
  after_results

/-! ## After the fourth call: the result -/

/-- The kernel program's result buffer ends at the reference's last stage of the seven arguments. -/
theorem exit4_result (c : Dev nD) :
    W9 m ρ c (Proc.devRef .tc main_v63) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.ReferenceIdeal.Stages.result_eq]
  refine (W9_arr m ρ c 2).trans ((addBias_array (V8 m ρ) c).trans ?_)
  show Cert.ReferenceIdeal.Stages.addBias (W8 m ρ c (Proc.devRef .tc main_v62)) (W8 m ρ c (Proc.devRef .tc main_arg6)) = _
  rw [entry4_aggregated, entry4_arg6]

end Cert.KernelIdeal.Layers

end
-- ==== Proof.lean ====
/-
  A two-layer graph convolution on 100000 nodes and 1600000 weighted edges, computed two ways.

  With self loops added and the symmetric normalisation Â = D^(-1/2) (A + I) D^(-1/2) (D the weighted in-degrees), both
  programs compute   out = Â · relu(Â · (X·W₁) + b₁) · W₂ + b₂ ,   applying Â by gathering the projected rows at the
  edges' sources, scaling them by the normalised weights and summing them into the edges' destinations.
  The reference does every step on the host. The kernel program does the two projections and the two bias steps in
  four kernel calls over blocks of 10000 rows (the projections on the matrix unit with operands rounded to bf16, which
  is the identity on the extended reals) and everything else — the normalisation, the gathers, the scatter-adds — with
  the reference's own host operations.

  At the exact extended reals each kernel call leaves in its result array exactly what the reference's host operation
  computes from the same operands: a block of rows of X·W is the product of that block of rows (the same 64-term sum,
  term for term), and the bias and rectifier are entry-wise. The host operations in between are the same functions
  applied to equal operands. So the two results are the same function of the seven arguments, with no appeal to
  finiteness: no sum is reordered and nothing is distributed or cancelled.
-/
import proofs.«134658_j80487687127270_1_alg».proof.Defs
import proofs.«134658_j80487687127270_1_alg».proof.Proof.Gen.Kernel
import proofs.«134658_j80487687127270_1_alg».proof.Proof.Gen.Kernel.Skeleton
import proofs.«134658_j80487687127270_1_alg».proof.Proof.Gen.Kernel.Launch
import proofs.«134658_j80487687127270_1_alg».proof.Proof.Gen.Kernel.Points
import proofs.«134658_j80487687127270_1_alg».proof.Proof.Gen.Kernel.Frame
import proofs.«134658_j80487687127270_1_alg».proof.Proof.Gen.KernelIdeal
import proofs.«134658_j80487687127270_1_alg».proof.Proof.Gen.KernelIdeal.Skeleton
import proofs.«134658_j80487687127270_1_alg».proof.Proof.Gen.KernelIdeal.Launch
import proofs.«134658_j80487687127270_1_alg».proof.Proof.Gen.KernelIdeal.Points
import proofs.«134658_j80487687127270_1_alg».proof.Proof.Gen.KernelIdeal.Frame
import proofs.«134658_j80487687127270_1_alg».proof.Proof.Gen.ReferenceIdeal
import proofs.«134658_j80487687127270_1_alg».proof.Proof.Gen.Pre_finite_inputs
import proofs.«134658_j80487687127270_1_alg».proof.Proof.Gen.ReferenceIdeal.Run
import proofs.«134658_j80487687127270_1_alg».proof.Proof.Gen.ReferenceIdeal.Read
import proofs.«134658_j80487687127270_1_alg».proof.Proof.KernelRun
import proofs.«134658_j80487687127270_1_alg».proof.Proof.Chain
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its reading at the exact extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with their result at the reference's last
    stage of those arguments: the kernel program's by the boundary-by-boundary reading of its run, the reference's by
    its own run. -/
theorem algebraic : Cert.algebraic_KernelIdeal_ReferenceIdeal := by
  intro m ρ m' ρ' _ hagree
  refine ⟨fun c => Cert.ReferenceIdeal.Read.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Layers.exit4_result m ρ c), (h c).2⟩)
      (Cert.KernelIdeal.Layers.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v68_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
